-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 46
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x128, .f32⟩
  | .hbm, ⟨28, _⟩ => ⟨S1x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its result named.

  The program is two kernel calls among two stretches of host operations. Its run through the four segments ends with
  every unscoped buffer of a core at the last boundary's contents: the launch memory carried through the first host stretch,
  the first call's write-backs, the second host stretch and the second call's write-backs. Read at the result buffer this
  names the result; read at an argument buffer it is the launch contents.
-/
import proofs.«137745_j27384711480020_1_alg».proof.Proof.Gen.KernelIdeal.Frame

set_option maxRecDepth 16384

noncomputable section

namespace Cert.Gin.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and any property of the final memory that follows from
    "every unscoped buffer of every core holds the last boundary's contents" holds of it. -/
theorem run_final {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with the result buffer at the last boundary's contents and the arguments as launched. -/
theorem run_result : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_final m ρ (fun s h c =>
    ⟨h c _ (mem_uc main_v29 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩)

end Cert.Gin.Run

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.Mlp.lean ====
/-
  One layer of the graph network, read entry by entry over the extended reals.

  A layer takes the node features `X` and the summed neighbour messages `A`, both `[R, 128]`, adds them, and sends every
  row through a two-layer perceptron: a hidden row `max ((X + A) · Wa + ba) 0` and then `hidden · Wb + bb`. Entry `(r, c)`
  of the result depends only on row `r` of `X` and of `A` and on the weights, so the same formula describes a block of rows
  and the whole matrix: that is what lets a row block computed by itself be identified with the rows of the whole result.
-/
import Idealize.ShloMosaic.Lib.ValueIdx

noncomputable section

namespace Cert.Gin

open Idealize.ShloMosaic Idealize.ShloMosaic.ValueIdx

/-- An `[a, b]` array of extended reals. -/
abbrev Mat (a b : ℕ) : Type := (⟨2, ![a, b]⟩ : Shape).Idx → EReal

/-- The float word of zero, the threshold of the rectifier. -/
abbrev zeroWord : EReal := Ideal.ofBits .f32 0x00000000#32

/-- Hidden unit `h` of row `r`: `max (∑ k, (X r k + A r k) · Wa k h + ba h) 0`. -/
def hidden {R : ℕ} (X A : Mat R 128) (Wa : Mat 128 128) (ba : Fin 128 → EReal) (r : Fin R) (h : Fin 128) : EReal :=
  max ((∑ k : Fin 128, (X (ix2 r k) + A (ix2 r k)) * Wa (ix2 k h)) + ba h) zeroWord

/-- Output unit `c` of row `r` before any final rectifier: `∑ h, hidden r h · Wb h c + bb c`. -/
def affine {R : ℕ} (X A : Mat R 128) (Wa : Mat 128 128) (ba : Fin 128 → EReal) (Wb : Mat 128 128) (bb : Fin 128 → EReal)
    (r : Fin R) (c : Fin 128) : EReal :=
  (∑ h : Fin 128, hidden X A Wa ba r h * Wb (ix2 h c)) + bb c

/-- The first layer: the perceptron's output rectified. -/
def layerRelu {R : ℕ} (X A : Mat R 128) (Wa : Mat 128 128) (ba : Fin 128 → EReal) (Wb : Mat 128 128) (bb : Fin 128 → EReal) :
    Mat R 128 := fun i => max (affine X A Wa ba Wb bb (i 0) (i 1)) zeroWord

/-- The last layer: the perceptron's output as it is. -/
def layerLin {R : ℕ} (X A : Mat R 128) (Wa : Mat 128 128) (ba : Fin 128 → EReal) (Wb : Mat 128 128) (bb : Fin 128 → EReal) :
    Mat R 128 := fun i => affine X A Wa ba Wb bb (i 0) (i 1)

/-- A hidden unit depends only on the row of `X` and of `A` it is taken at and on the entries of the weights: two sets of
    operands that agree there give the same value, whatever the heights of the two matrices. -/
theorem hidden_congr {R R' : ℕ} {X A : Mat R 128} {X' A' : Mat R' 128} {Wa Wa' : Mat 128 128} {ba ba' : Fin 128 → EReal}
    {r : Fin R} {r' : Fin R'} (hX : ∀ k : Fin 128, X (ix2 r k) = X' (ix2 r' k)) (hA : ∀ k : Fin 128, A (ix2 r k) = A' (ix2 r' k))
    (hWa : ∀ k h : Fin 128, Wa (ix2 k h) = Wa' (ix2 k h)) (hba : ∀ h : Fin 128, ba h = ba' h)
    (h : Fin 128) : hidden X A Wa ba r h = hidden X' A' Wa' ba' r' h := by
  unfold hidden
  rw [hba h]
  refine congrArg (fun z => max (z + ba' h) zeroWord) (Finset.sum_congr rfl fun k _ => ?_)
  rw [hX k, hA k, hWa k h]

/-- So does an output unit. -/
theorem affine_congr {R R' : ℕ} {X A : Mat R 128} {X' A' : Mat R' 128} {Wa Wa' : Mat 128 128} {ba ba' : Fin 128 → EReal}
    {Wb Wb' : Mat 128 128} {bb bb' : Fin 128 → EReal}
    {r : Fin R} {r' : Fin R'} (hX : ∀ k : Fin 128, X (ix2 r k) = X' (ix2 r' k)) (hA : ∀ k : Fin 128, A (ix2 r k) = A' (ix2 r' k))
    (hWa : ∀ k h : Fin 128, Wa (ix2 k h) = Wa' (ix2 k h)) (hba : ∀ h : Fin 128, ba h = ba' h)
    (hWb : ∀ h c : Fin 128, Wb (ix2 h c) = Wb' (ix2 h c)) (hbb : ∀ c : Fin 128, bb c = bb' c)
    (c : Fin 128) : affine X A Wa ba Wb bb r c = affine X' A' Wa' ba' Wb' bb' r' c := by
  unfold affine
  rw [hbb c]
  refine congrArg (fun z => z + bb' c) (Finset.sum_congr rfl fun h _ => ?_)
  rw [hidden_congr hX hA hWa hba h, hWb h c]

end Cert.Gin

end
-- ==== Proof.Payload.lean ====
/-
  What the kernel body computes on one block of rows, entry by entry.

  On a block of 5000 rows the body adds the feature block and the message block, multiplies by the first weight matrix on the
  matrix unit into a zero accumulator, adds the bias row, rectifies, multiplies by the second weight matrix, adds the second
  bias row and (in the first call only) rectifies again. Over the extended reals a change of float format is the identity and a
  matrix product into zero is the plain sum over the contracted coordinate, so entry `(p, q)` of the stored block is the
  perceptron's output unit `q` of row `p` of the two blocks.
-/
import proofs.«137745_j27384711480020_1_alg».proof.Proof.Gen.KernelIdeal.Skeleton
import proofs.«137745_j27384711480020_1_alg».proof.Proof.LibMatProduct
import proofs.«137745_j27384711480020_1_alg».proof.Proof.Mlp
import Idealize.ShloMosaic.Lib.Pipeline.Value
import Idealize.ShloMosaic.Lib.ValueLayout

noncomputable section

namespace Cert.Gin

open Idealize.ShloMosaic Idealize.ShloMosaic.ValueIdx Cert.KernelIdeal Cert.KernelIdeal.Gen

/-- A product with a `[128, 128]` matrix into a zero accumulator plus a broadcast bias row, at `(p, q)`:
    `∑ h, L p h · W h q + b 0 q`. -/
theorem dense_apply {φ₁ φ₂ : FTy} (L : FVec Ideal S5000x128 φ₁) (W : FVec Ideal S128x128 φ₂) (b : Vec Ideal S1x128 .f32)
    (p : Fin 5000) (q : Fin 128) :
    addf (FloatOps.matmul dot_S5000x128_S128x128_S5000x128_1_0_0_1_n_n none L W (constant S5000x128 .f32 0x00000000#32))
        (broadcastTo S5000x128 b Facts₀.broadcasts_S1x128_S5000x128) (ix2 p q)
      = (∑ h : Fin 128, L (ix2 p h) * W (ix2 h q)) + b (ix2 (0 : Fin 1) q) := by
  show FloatOps.matmul dot_S5000x128_S128x128_S5000x128_1_0_0_1_n_n none L W (constant S5000x128 .f32 0x00000000#32) (ix2 p q)
      + broadcastTo S5000x128 b Facts₀.broadcasts_S1x128_S5000x128 (ix2 p q) = _
  rw [Cert.LibMatProduct.matmul_zero_apply dot_S5000x128_S128x128_S5000x128_1_0_0_1_n_n none rfl rfl rfl rfl rfl rfl L W p q,
    broadcastTo_1b_ab_apply]

/-- The hidden block the body forms, at `(p, h)`. -/
theorem hidden_apply (x0 x1 : Vec Ideal S5000x128 .f32) (x2 : Vec Ideal S128x128 .f32) (x3 : Vec Ideal S1x128 .f32)
    (p : Fin 5000) (h : Fin 128) :
    maximumf (addf (FloatOps.matmul dot_S5000x128_S128x128_S5000x128_1_0_0_1_n_n none
          (truncf .bf16 (addf x0 x1) Facts₀.bitsLt_bf16_f32) (truncf .bf16 x2 Facts₀.bitsLt_bf16_f32) (constant S5000x128 .f32 0x00000000#32))
        (broadcastTo S5000x128 x3 Facts₀.broadcasts_S1x128_S5000x128))
      (broadcast S5000x128 (Scalar.ofBits (F := Ideal) .f32 0x00000000#32)) (ix2 p h)
      = hidden x0 x1 x2 (fun h => x3 (ix2 (0 : Fin 1) h)) p h := by
  show max (addf (F := Ideal) _ _ (ix2 p h)) zeroWord = _
  unfold hidden
  exact congrArg (fun z => max z zeroWord) (dense_apply _ _ x3 p h)

/-- The first call's stored block at `(p, q)`: the rectified output unit `q` of row `p`. -/
theorem pay0_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay1 (F := Ideal) x0 x1 x2 x3 x4 x5 (ix2 p q)
      = max (affine x0 x1 x2 (fun h => x3 (ix2 (0 : Fin 1) h)) x4 (fun h => x5 (ix2 (0 : Fin 1) h)) p q) zeroWord := by
  unfold k0_pay1
  simp only [shapeCast_self]
  show max (addf (F := Ideal) _ _ (ix2 p q)) zeroWord = _
  refine congrArg (fun z => max z zeroWord) ((dense_apply _ _ x5 p q).trans ?_)
  unfold affine
  refine congrArg (fun z => z + x5 (ix2 (0 : Fin 1) q)) (Finset.sum_congr rfl fun h _ => ?_)
  exact congrArg (fun z => z * x4 (ix2 h q)) (hidden_apply x0 x1 x2 x3 p h)

/-- The second call's stored block at `(p, q)`: output unit `q` of row `p`, not rectified. -/
theorem pay1_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k1_pay1 (F := Ideal) x0 x1 x2 x3 x4 x5 (ix2 p q)
      = affine x0 x1 x2 (fun h => x3 (ix2 (0 : Fin 1) h)) x4 (fun h => x5 (ix2 (0 : Fin 1) h)) p q := by
  unfold k1_pay1
  simp only [shapeCast_self]
  refine (dense_apply _ _ x5 p q).trans ?_
  unfold affine
  refine congrArg (fun z => z + x5 (ix2 (0 : Fin 1) q)) (Finset.sum_congr rfl fun h _ => ?_)
  exact congrArg (fun z => z * x4 (ix2 h q)) (hidden_apply x0 x1 x2 x3 p h)

end Cert.Gin

end
-- ==== Proof.Blocks.lean ====
/-
  From row blocks to the whole array, for each of the two kernel calls.

  A call walks ten grid points; at point `t` it reads rows `5000 t … 5000 t + 4999` of the feature array and of the message
  array, the whole weight matrices and bias rows, and writes the same rows of its result. Because an entry of a layer's
  output depends only on its own row of the two inputs, what point `t` writes is exactly that row block of the layer applied
  to the whole arrays; the ten blocks tile the result, so the result array ends holding the layer's function of the arrays
  the call found — whatever those arrays are.
-/
import proofs.«137745_j27384711480020_1_alg».proof.Proof.Gen.KernelIdeal.Frame
import proofs.«137745_j27384711480020_1_alg».proof.Proof.Payload
import Idealize.ShloMosaic.Lib.Pipeline.Value

set_option maxRecDepth 16384

noncomputable section

namespace Cert.Gin

open Cert.KernelIdeal Cert.KernelIdeal.Gen
open Idealize.ShloMosaic Idealize.ShloMosaic.TcCoe Idealize.ShloMosaic.ValueIdx Idealize.SL.Sem
open Idealize.ShloMosaic.Pipeline (Dat)

-- the buffer contents a call finds when it is entered: everything below holds for any
variable (V : (c : Dev nD) → (b : Ref sig .tc) → Buf (Elt Ideal) ((c : Thread nD τ).loc b))

theorem hz : (![0, 0] : Fin 2 → Nat) = fun _ => 0 := funext fun a => by fin_cases a <;> rfl

/-! ## Kernel call 0 -/

/-- What call 0's result array holds once it has run: the layer's function of the arrays the call finds. -/
def G0 (c : Dev nD) : S50000x128.Idx → EReal :=
  layerRelu (V c main_arg0 : S50000x128.Idx → EReal) (V c main_v13 : S50000x128.Idx → EReal) (V c main_arg2 : S128x128.Idx → EReal)
    (fun h => (V c main_v14 : S1x128.Idx → EReal) (ix2 (0 : Fin 1) h)) (V c main_arg4 : S128x128.Idx → EReal)
    (fun h => (V c main_v15 : S1x128.Idx → EReal) (ix2 (0 : Fin 1) h))

/-- The printed index maps over the grid: the two row-blocked inputs move with the output's row block, the weights and the
    bias rows stay at block zero, and point `t`'s row block is block `t`. -/
theorem idx_facts0 : ∀ t : Fin cfg0.N, win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is rows `5000 t … 5000 t + 4999` of `G0`: entry `(p, q)` of the stored block is the
    perceptron's unit `q` of row `p` of the two input blocks, which are rows `5000 t + p` of the two arrays. -/
theorem flushed_eq0 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts0 t
  refine funext fun (j : S5000x128.Idx) => ?_
  obtain ⟨p, q, rfl⟩ : ∃ (p : Fin 5000) (q : Fin 128), j = ix2 p q := ⟨j 0, j 1, eq_ix2 j⟩
  refine (pay0_apply _ _ _ _ _ _ p q).trans ?_
  show _ = G0 V c (((cfg0.win 6).blk t).view.emb (ix2 p q))
  unfold G0 layerRelu
  refine congrArg (fun z => max z zeroWord) ?_
  -- the block's entry (p, q) sits at row `5000 t + p`, column `q` of the array
  suffices key : ∀ (r : Fin 50000) (q' : Fin 128), r.val = win0_6.index t (0 : Fin 2) * 5000 + 1 * p.val → q'.val = q.val →
      affine (iblk0 V c 0 t) (iblk0 V c 1 t) (iblk0 V c 2 t) (fun h => iblk0 V c 3 t (ix2 (0 : Fin 1) h)) (iblk0 V c 4 t)
          (fun h => iblk0 V c 5 t (ix2 (0 : Fin 1) h)) p q
        = affine (V c main_arg0 : S50000x128.Idx → EReal) (V c main_v13 : S50000x128.Idx → EReal) (V c main_arg2 : S128x128.Idx → EReal)
          (fun h => (V c main_v14 : S1x128.Idx → EReal) (ix2 (0 : Fin 1) h)) (V c main_arg4 : S128x128.Idx → EReal)
          (fun h => (V c main_v15 : S1x128.Idx → EReal) (ix2 (0 : Fin 1) h)) r q' from
    key _ _ rfl (by show win0_6.index t (1 : Fin 2) * 128 + 1 * q.val = q.val; omega)
  intro r q' hr hq'
  obtain rfl : q' = q := Fin.ext hq'
  refine affine_congr (fun k => ?_) (fun k => ?_) (fun k h => ?_) (fun h => ?_) (fun h c' => ?_) (fun c' => ?_) q'
  · show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = r.val; omega
    | ⟨1, _⟩ => show win0_0.index t (1 : Fin 2) * 128 + 1 * k.val = k.val; omega
  · show V c main_v13 (((cfg0.win 1).blk t).view.emb (ix2 p k)) = V c main_v13 _
    refine congrArg (V c main_v13) (funext fun a => Fin.ext ?_)
    match a with
    | ⟨0, _⟩ => show win0_1.index t (0 : Fin 2) * 5000 + 1 * p.val = r.val; omega
    | ⟨1, _⟩ => show win0_1.index t (1 : Fin 2) * 128 + 1 * k.val = k.val; omega
  · show V c main_arg2 (((cfg0.win 2).blk t).view.emb (ix2 k h)) = V c main_arg2 _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * h.val = h.val; omega
  · show V c main_v14 (((cfg0.win 3).blk t).view.emb (ix2 (0 : Fin 1) h)) = V c main_v14 _
    refine congrArg (V c main_v14) (funext fun a => Fin.ext ?_)
    match a with
    | ⟨0, _⟩ => show win0_3.index t (0 : Fin 2) * 1 + 1 * 0 = 0; omega
    | ⟨1, _⟩ => show win0_3.index t (1 : Fin 2) * 128 + 1 * h.val = h.val; omega
  · show V c main_arg4 (((cfg0.win 4).blk t).view.emb (ix2 h c')) = V c main_arg4 _
    refine congrArg (V c main_arg4) (funext fun a => Fin.ext ?_)
    match a with
    | ⟨0, _⟩ => show win0_4.index t (0 : Fin 2) * 128 + 1 * h.val = h.val; omega
    | ⟨1, _⟩ => show win0_4.index t (1 : Fin 2) * 128 + 1 * c'.val = c'.val; omega
  · show V c main_v15 (((cfg0.win 5).blk t).view.emb (ix2 (0 : Fin 1) c')) = V c main_v15 _
    refine congrArg (V c main_v15) (funext fun a => Fin.ext ?_)
    match a with
    | ⟨0, _⟩ => show win0_5.index t (0 : Fin 2) * 1 + 1 * 0 = 0; omega
    | ⟨1, _⟩ => show win0_5.index t (1 : Fin 2) * 128 + 1 * c'.val = c'.val; omega

/-- An index of the result array is in point `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- Row `r` lies in the block of point `r / 5000`: the ten row blocks tile the array. -/
theorem cover0 (i : S50000x128.Idx) : ∃ t : Fin cfg0.N, (cfg0.win 6).flush t = true ∧ i ∈ ((cfg0.win 6).blk t).view.set := by
    have hi0 : (i 0).val < 50000 := (i 0).isLt
    have hi1 : (i 1).val < 128 := (i 1).isLt
    have hN : cfg0.N = 10 := N_0
    refine ⟨⟨(i 0).val / 5000, by rw [hN]; omega⟩, flush0_6 _, ?_⟩
    obtain ⟨-, -, -, -, -, -, -, -, -, -, -, -, e60, e61⟩ := idx_facts0 ⟨(i 0).val / 5000, by rw [hN]; omega⟩
    rw [mem_blk0]
    intro a
    match a with
    | ⟨0, _⟩ =>
      show win0_6.index _ (0 : Fin 2) * 5000 ≤ (i 0).val ∧ (i 0).val < win0_6.index _ (0 : Fin 2) * 5000 + 5000
      rw [e60]; show (i 0).val / 5000 * 5000 ≤ (i 0).val ∧ (i 0).val < (i 0).val / 5000 * 5000 + 5000; omega
    | ⟨1, _⟩ =>
      show win0_6.index _ (1 : Fin 2) * 128 ≤ (i 1).val ∧ (i 1).val < win0_6.index _ (1 : Fin 2) * 128 + 128
      rw [e61]; omega

/-- So after the run the result array holds `G0`. -/
theorem final0 (c : Dev nD) : (dat0 V c).arrAt 6 cfg0.N = G0 V c :=
  (dat0 V c).arrAt_eq_of_cover 6 (G0 V c) (fun t _ => flushed_eq0 V c t) cover0

/-! ## Kernel call 1 -/

/-- What call 1's result array holds once it has run: the layer's function of the arrays the call finds. -/
def G1 (c : Dev nD) : S50000x128.Idx → EReal :=
  layerLin (V c main_v16 : S50000x128.Idx → EReal) (V c main_v26 : S50000x128.Idx → EReal) (V c main_arg6 : S128x128.Idx → EReal)
    (fun h => (V c main_v27 : S1x128.Idx → EReal) (ix2 (0 : Fin 1) h)) (V c main_arg8 : S128x128.Idx → EReal)
    (fun h => (V c main_v28 : S1x128.Idx → EReal) (ix2 (0 : Fin 1) h))

/-- The printed index maps over the grid: the two row-blocked inputs move with the output's row block, the weights and the
    bias rows stay at block zero, and point `t`'s row block is block `t`. -/
theorem idx_facts1 : ∀ t : Fin cfg1.N, win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is rows `5000 t … 5000 t + 4999` of `G1`: entry `(p, q)` of the stored block is the
    perceptron's unit `q` of row `p` of the two input blocks, which are rows `5000 t + p` of the two arrays. -/
theorem flushed_eq1 (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts1 t
  refine funext fun (j : S5000x128.Idx) => ?_
  obtain ⟨p, q, rfl⟩ : ∃ (p : Fin 5000) (q : Fin 128), j = ix2 p q := ⟨j 0, j 1, eq_ix2 j⟩
  refine (pay1_apply _ _ _ _ _ _ p q).trans ?_
  show _ = G1 V c (((cfg1.win 6).blk t).view.emb (ix2 p q))
  unfold G1 layerLin

  -- the block's entry (p, q) sits at row `5000 t + p`, column `q` of the array
  suffices key : ∀ (r : Fin 50000) (q' : Fin 128), r.val = win1_6.index t (0 : Fin 2) * 5000 + 1 * p.val → q'.val = q.val →
      affine (iblk1 V c 0 t) (iblk1 V c 1 t) (iblk1 V c 2 t) (fun h => iblk1 V c 3 t (ix2 (0 : Fin 1) h)) (iblk1 V c 4 t)
          (fun h => iblk1 V c 5 t (ix2 (0 : Fin 1) h)) p q
        = affine (V c main_v16 : S50000x128.Idx → EReal) (V c main_v26 : S50000x128.Idx → EReal) (V c main_arg6 : S128x128.Idx → EReal)
          (fun h => (V c main_v27 : S1x128.Idx → EReal) (ix2 (0 : Fin 1) h)) (V c main_arg8 : S128x128.Idx → EReal)
          (fun h => (V c main_v28 : S1x128.Idx → EReal) (ix2 (0 : Fin 1) h)) r q' from
    key _ _ rfl (by show win1_6.index t (1 : Fin 2) * 128 + 1 * q.val = q.val; omega)
  intro r q' hr hq'
  obtain rfl : q' = q := Fin.ext hq'
  refine affine_congr (fun k => ?_) (fun k => ?_) (fun k h => ?_) (fun h => ?_) (fun h c' => ?_) (fun c' => ?_) q'
  · show V c main_v16 (((cfg1.win 0).blk t).view.emb (ix2 p k)) = V c main_v16 _
    refine congrArg (V c main_v16) (funext fun a => Fin.ext ?_)
    match a with
    | ⟨0, _⟩ => show win1_0.index t (0 : Fin 2) * 5000 + 1 * p.val = r.val; omega
    | ⟨1, _⟩ => show win1_0.index t (1 : Fin 2) * 128 + 1 * k.val = k.val; omega
  · show V c main_v26 (((cfg1.win 1).blk t).view.emb (ix2 p k)) = V c main_v26 _
    refine congrArg (V c main_v26) (funext fun a => Fin.ext ?_)
    match a with
    | ⟨0, _⟩ => show win1_1.index t (0 : Fin 2) * 5000 + 1 * p.val = r.val; omega
    | ⟨1, _⟩ => show win1_1.index t (1 : Fin 2) * 128 + 1 * k.val = k.val; omega
  · show V c main_arg6 (((cfg1.win 2).blk t).view.emb (ix2 k h)) = V c main_arg6 _
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 128 + 1 * h.val = h.val; omega
  · show V c main_v27 (((cfg1.win 3).blk t).view.emb (ix2 (0 : Fin 1) h)) = V c main_v27 _
    refine congrArg (V c main_v27) (funext fun a => Fin.ext ?_)
    match a with
    | ⟨0, _⟩ => show win1_3.index t (0 : Fin 2) * 1 + 1 * 0 = 0; omega
    | ⟨1, _⟩ => show win1_3.index t (1 : Fin 2) * 128 + 1 * h.val = h.val; omega
  · show V c main_arg8 (((cfg1.win 4).blk t).view.emb (ix2 h c')) = V c main_arg8 _
    refine congrArg (V c main_arg8) (funext fun a => Fin.ext ?_)
    match a with
    | ⟨0, _⟩ => show win1_4.index t (0 : Fin 2) * 128 + 1 * h.val = h.val; omega
    | ⟨1, _⟩ => show win1_4.index t (1 : Fin 2) * 128 + 1 * c'.val = c'.val; omega
  · show V c main_v28 (((cfg1.win 5).blk t).view.emb (ix2 (0 : Fin 1) c')) = V c main_v28 _
    refine congrArg (V c main_v28) (funext fun a => Fin.ext ?_)
    match a with
    | ⟨0, _⟩ => show win1_5.index t (0 : Fin 2) * 1 + 1 * 0 = 0; omega
    | ⟨1, _⟩ => show win1_5.index t (1 : Fin 2) * 128 + 1 * c'.val = c'.val; omega

/-- An index of the result array is in point `t`'s block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v29).slice (win1_6.rect t)).set ↔ _
  rw [View.set_slice_whole, Rect.mem_set_unit]
  exact Iff.rfl

/-- Row `r` lies in the block of point `r / 5000`: the ten row blocks tile the array. -/
theorem cover1 (i : S50000x128.Idx) : ∃ t : Fin cfg1.N, (cfg1.win 6).flush t = true ∧ i ∈ ((cfg1.win 6).blk t).view.set := by
    have hi0 : (i 0).val < 50000 := (i 0).isLt
    have hi1 : (i 1).val < 128 := (i 1).isLt
    have hN : cfg1.N = 10 := N_1
    refine ⟨⟨(i 0).val / 5000, by rw [hN]; omega⟩, flush1_6 _, ?_⟩
    obtain ⟨-, -, -, -, -, -, -, -, -, -, -, -, e60, e61⟩ := idx_facts1 ⟨(i 0).val / 5000, by rw [hN]; omega⟩
    rw [mem_blk1]
    intro a
    match a with
    | ⟨0, _⟩ =>
      show win1_6.index _ (0 : Fin 2) * 5000 ≤ (i 0).val ∧ (i 0).val < win1_6.index _ (0 : Fin 2) * 5000 + 5000
      rw [e60]; show (i 0).val / 5000 * 5000 ≤ (i 0).val ∧ (i 0).val < (i 0).val / 5000 * 5000 + 5000; omega
    | ⟨1, _⟩ =>
      show win1_6.index _ (1 : Fin 2) * 128 ≤ (i 1).val ∧ (i 1).val < win1_6.index _ (1 : Fin 2) * 128 + 128
      rw [e61]; omega

/-- So after the run the result array holds `G1`. -/
theorem final1 (c : Dev nD) : (dat1 V c).arrAt 6 cfg1.N = G1 V c :=
  (dat1 V c).arrAt_eq_of_cover 6 (G1 V c) (fun t _ => flushed_eq1 V c t) cover1

end Cert.Gin

end
-- ==== Proof.Network.lean ====
/-
  The two-layer network as one function of the ten inputs.

  The neighbour sum of a feature matrix `X` over the edge list `E` is the host's own scatter-add into zeros, at the edges'
  destination nodes, of the rows gathered at the edges' source nodes (a negative source index wrapped by the number of nodes, as
  jnp's indexing does). It is used as one opaque function of `X` and `E`: nothing below depends on which rows it moves
  where. The network is the rectified layer applied to `X` and its neighbour sum, then the linear layer applied to that
  result and ITS neighbour sum.
-/
import proofs.«137745_j27384711480020_1_alg».proof.Proof.Gen.KernelIdeal
import proofs.«137745_j27384711480020_1_alg».proof.Proof.Mlp

noncomputable section

namespace Cert.Gin

open Cert.KernelIdeal Idealize.ShloMosaic Idealize.ShloMosaic.ValueIdx

/-- Row 0 of the edge list: each edge's source node. -/
def srcOf (E : (⟨S2x800000, .i32⟩ : BufTy).Contents (Elt Ideal)) : (⟨S800000, .i32⟩ : BufTy).Contents (Elt Ideal) :=
  shapeCast _ (extractStridedSlice S1x800000 ![0, 0] E Facts₀.slices_S2x800000_S1x800000_0_0) Facts₀.shapeCasts_S1x800000_S800000

/-- Row 1 of the edge list: each edge's destination node. -/
def dstOf (E : (⟨S2x800000, .i32⟩ : BufTy).Contents (Elt Ideal)) : (⟨S800000, .i32⟩ : BufTy).Contents (Elt Ideal) :=
  shapeCast _ (extractStridedSlice S1x800000 ![1, 0] E Facts₀.slices_S2x800000_S1x800000_1_0) Facts₀.shapeCasts_S1x800000_S800000

/-- The rows of `X` at the source nodes `s`, added into zeros at the destination nodes `d`. -/
def aggOf (X : (⟨S50000x128, .f32⟩ : BufTy).Contents (Elt Ideal)) (s d : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] Facts₀.bcast_S_S50000x128 (constant (F := Ideal) S_ .f32 0x00000000#32))
    (broadcastInDim S800000x1 ![0] Facts₀.bcast_S800000_S800000x1_0 d)
    (Host.gather gather_S50000x128_S800000x1_S800000x128_1_0_n_n_0_1_1128 X
      (broadcastInDim S800000x1 ![0] Facts₀.bcast_S800000_S800000x1_0
        (select (cmpi .slt s (broadcastInDim S800000 ![] Facts₀.bcast_S_S800000 (constantI S_ 32 0#32)))
          (addi s (broadcastInDim S800000 ![] Facts₀.bcast_S_S800000 (constantI S_ 32 50000#32))) s)))

/-- The neighbour sum of `X` over the edge list `E`. -/
def agg (X : (⟨S50000x128, .f32⟩ : BufTy).Contents (Elt Ideal)) (E : (⟨S2x800000, .i32⟩ : BufTy).Contents (Elt Ideal)) :
    (⟨S50000x128, .f32⟩ : BufTy).Contents (Elt Ideal) := aggOf X (srcOf E) (dstOf E)

/-- A bias vector as a function of the unit. -/
def biasRow (b : (⟨S128, .f32⟩ : BufTy).Contents (Elt Ideal)) : Fin 128 → EReal := fun h => b (ix1 h)

/-- The first layer's output: the node features after one round of message passing. -/
def feat (X : (⟨S50000x128, .f32⟩ : BufTy).Contents (Elt Ideal)) (E : (⟨S2x800000, .i32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal)) :
    (⟨S50000x128, .f32⟩ : BufTy).Contents (Elt Ideal) :=
  layerRelu (R := 50000) X (agg X E) W1 (biasRow b1) W2 (biasRow b2)

/-- The network's output. -/
def net (X : (⟨S50000x128, .f32⟩ : BufTy).Contents (Elt Ideal)) (E : (⟨S2x800000, .i32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (W3 : (⟨S128x128, .f32⟩ : BufTy).Contents (Elt Ideal)) (b3 : (⟨S128, .f32⟩ : BufTy).Contents (Elt Ideal))
    (W4 : (⟨S128x128, .f32⟩ : BufTy).Contents (Elt Ideal)) (b4 : (⟨S128, .f32⟩ : BufTy).Contents (Elt Ideal)) :
    (⟨S50000x128, .f32⟩ : BufTy).Contents (Elt Ideal) :=
  layerLin (R := 50000) (feat X E W1 b1 W2 b2) (agg (feat X E W1 b1 W2 b2) E) W3 (biasRow b3) W4 (biasRow b4)

end Cert.Gin

end
-- ==== Proof.KernelValue.lean ====
/-
  The idealized kernel program's result is the network of its inputs.

  The result buffer's last contents are the second call's result array: the linear layer of what that call found in its
  six operand arrays. Those are, walking the program backwards: the first call's result array (the rectified layer of what
  THAT call found), its neighbour sum as the second host stretch computed it, and the last two weight matrices and bias
  vectors — the biases recast from `[128]` to one row `[1, 128]`. What the first call found is the features, their
  neighbour sum as the first host stretch computed it, and the first two weight matrices and bias rows.
-/
import proofs.«137745_j27384711480020_1_alg».proof.Proof.Blocks
import proofs.«137745_j27384711480020_1_alg».proof.Proof.Network
import Idealize.ShloMosaic.Lib.StableHlo.Run
import Idealize.ShloMosaic.Lib.ValueLayout

set_option maxRecDepth 16384

noncomputable section

namespace Cert.Gin

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## What the first call finds: the launch memory through the first host stretch -/

theorem V1_arg0 (c : Dev nD) : V1 m ρ c main_arg0 = m ((c : Thread nD τ).loc main_arg0) := by
  show StableHlo.after hostOps0 (W0 m ρ c) (Proc.devRef .tc main_arg0) = _; after_results <;> rfl
theorem V1_arg2 (c : Dev nD) : V1 m ρ c main_arg2 = m ((c : Thread nD τ).loc main_arg2) := by
  show StableHlo.after hostOps0 (W0 m ρ c) (Proc.devRef .tc main_arg2) = _; after_results <;> rfl
theorem V1_arg4 (c : Dev nD) : V1 m ρ c main_arg4 = m ((c : Thread nD τ).loc main_arg4) := by
  show StableHlo.after hostOps0 (W0 m ρ c) (Proc.devRef .tc main_arg4) = _; after_results <;> rfl
theorem V1_arg6 (c : Dev nD) : V1 m ρ c main_arg6 = m ((c : Thread nD τ).loc main_arg6) := by
  show StableHlo.after hostOps0 (W0 m ρ c) (Proc.devRef .tc main_arg6) = _; after_results <;> rfl
theorem V1_arg8 (c : Dev nD) : V1 m ρ c main_arg8 = m ((c : Thread nD τ).loc main_arg8) := by
  show StableHlo.after hostOps0 (W0 m ρ c) (Proc.devRef .tc main_arg8) = _; after_results <;> rfl
theorem V1_arg7 (c : Dev nD) : V1 m ρ c main_arg7 = m ((c : Thread nD τ).loc main_arg7) := by
  show StableHlo.after hostOps0 (W0 m ρ c) (Proc.devRef .tc main_arg7) = _; after_results <;> rfl
theorem V1_arg9 (c : Dev nD) : V1 m ρ c main_arg9 = m ((c : Thread nD τ).loc main_arg9) := by
  show StableHlo.after hostOps0 (W0 m ρ c) (Proc.devRef .tc main_arg9) = _; after_results <;> rfl
/-- The edges' source and destination nodes. -/
theorem V1_v1 (c : Dev nD) : V1 m ρ c main_v1 = srcOf (m ((c : Thread nD τ).loc main_arg1)) := by
  show StableHlo.after hostOps0 (W0 m ρ c) (Proc.devRef .tc main_v1) = _; after_results <;> rfl
theorem V1_v3 (c : Dev nD) : V1 m ρ c main_v3 = dstOf (m ((c : Thread nD τ).loc main_arg1)) := by
  show StableHlo.after hostOps0 (W0 m ρ c) (Proc.devRef .tc main_v3) = _; after_results <;> rfl
/-- The features' neighbour sum. -/
theorem V1_v13 (c : Dev nD) : V1 m ρ c main_v13 = agg (m ((c : Thread nD τ).loc main_arg0)) (m ((c : Thread nD τ).loc main_arg1)) := by
  show StableHlo.after hostOps0 (W0 m ρ c) (Proc.devRef .tc main_v13) = _; after_results <;> rfl
/-- The first two bias vectors as rows. -/
theorem V1_v14 (c : Dev nD) (h : Fin 128) : (V1 m ρ c main_v14 : S1x128.Idx → EReal) (ix2 (0 : Fin 1) h) = biasRow (m ((c : Thread nD τ).loc main_arg3)) h := by
  have e : V1 m ρ c main_v14 = shapeCast S1x128 (m ((c : Thread nD τ).loc main_arg3)) Facts₀.shapeCasts_S128_S1x128 := by
    show StableHlo.after hostOps0 (W0 m ρ c) (Proc.devRef .tc main_v14) = _; after_results <;> rfl
  rw [e]; exact shapeCast_a_1a_apply _ _ 0 h
theorem V1_v15 (c : Dev nD) (h : Fin 128) : (V1 m ρ c main_v15 : S1x128.Idx → EReal) (ix2 (0 : Fin 1) h) = biasRow (m ((c : Thread nD τ).loc main_arg5)) h := by
  have e : V1 m ρ c main_v15 = shapeCast S1x128 (m ((c : Thread nD τ).loc main_arg5)) Facts₀.shapeCasts_S128_S1x128 := by
    show StableHlo.after hostOps0 (W0 m ρ c) (Proc.devRef .tc main_v15) = _; after_results <;> rfl
  rw [e]; exact shapeCast_a_1a_apply _ _ 0 h

/-- The first call's result array: the features after one round of message passing. -/
theorem first_result (c : Dev nD) :
    (dat0 (V1 m ρ) c).arrAt 6 cfg0.N
      = feat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final0]
  unfold G0 feat
  rw [V1_arg0, V1_v13, V1_arg2, V1_arg4, funext (V1_v14 m ρ c), funext (V1_v15 m ρ c)]

/-! ## What the second call finds: the first call's exit contents through the second host stretch -/

/-- A buffer no window of the first call stands on keeps its contents through the call. -/
theorem V2_v1 (c : Dev nD) : V2 m ρ c main_v1 = srcOf (m ((c : Thread nD τ).loc main_arg1)) :=
  (W2_of_ne m ρ c main_v1 (by decide)).trans (V1_v1 m ρ c)
theorem V2_v3 (c : Dev nD) : V2 m ρ c main_v3 = dstOf (m ((c : Thread nD τ).loc main_arg1)) :=
  (W2_of_ne m ρ c main_v3 (by decide)).trans (V1_v3 m ρ c)
theorem V2_arg7 (c : Dev nD) : V2 m ρ c main_arg7 = m ((c : Thread nD τ).loc main_arg7) :=
  (W2_of_ne m ρ c main_arg7 (by decide)).trans (V1_arg7 m ρ c)
theorem V2_arg9 (c : Dev nD) : V2 m ρ c main_arg9 = m ((c : Thread nD τ).loc main_arg9) :=
  (W2_of_ne m ρ c main_arg9 (by decide)).trans (V1_arg9 m ρ c)
theorem V2_v16 (c : Dev nD) :
    V2 m ρ c main_v16 = feat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 6).trans (first_result m ρ c)

theorem V3_v16 (c : Dev nD) :
    V3 m ρ c main_v16 = feat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine Eq.trans ?_ (V2_v16 m ρ c)
  show StableHlo.after hostOps1 (W2 m ρ c) (Proc.devRef .tc main_v16) = _; after_results <;> rfl
theorem V3_arg6 (c : Dev nD) : V3 m ρ c main_arg6 = m ((c : Thread nD τ).loc main_arg6) := by
  refine Eq.trans ?_ ((W2_of_ne m ρ c main_arg6 (by decide)).trans (V1_arg6 m ρ c))
  show StableHlo.after hostOps1 (W2 m ρ c) (Proc.devRef .tc main_arg6) = _; after_results <;> rfl
theorem V3_arg8 (c : Dev nD) : V3 m ρ c main_arg8 = m ((c : Thread nD τ).loc main_arg8) := by
  refine Eq.trans ?_ ((W2_of_ne m ρ c main_arg8 (by decide)).trans (V1_arg8 m ρ c))
  show StableHlo.after hostOps1 (W2 m ρ c) (Proc.devRef .tc main_arg8) = _; after_results <;> rfl
/-- The neighbour sum of the first call's result. -/
theorem V3_v26 (c : Dev nD) :
    V3 m ρ c main_v26 = agg (feat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) := by
  have e : V3 m ρ c main_v26 = aggOf (V2 m ρ c main_v16) (V2 m ρ c main_v1) (V2 m ρ c main_v3) := by
    show StableHlo.after hostOps1 (W2 m ρ c) (Proc.devRef .tc main_v26) = _; after_results <;> rfl
  rw [e, V2_v16, V2_v1, V2_v3]; rfl
/-- The last two bias vectors as rows. -/
theorem V3_v27 (c : Dev nD) (h : Fin 128) : (V3 m ρ c main_v27 : S1x128.Idx → EReal) (ix2 (0 : Fin 1) h) = biasRow (m ((c : Thread nD τ).loc main_arg7)) h := by
  have e : V3 m ρ c main_v27 = shapeCast S1x128 (V2 m ρ c main_arg7) Facts₀.shapeCasts_S128_S1x128 := by
    show StableHlo.after hostOps1 (W2 m ρ c) (Proc.devRef .tc main_v27) = _; after_results <;> rfl
  rw [e, V2_arg7]; exact shapeCast_a_1a_apply _ _ 0 h
theorem V3_v28 (c : Dev nD) (h : Fin 128) : (V3 m ρ c main_v28 : S1x128.Idx → EReal) (ix2 (0 : Fin 1) h) = biasRow (m ((c : Thread nD τ).loc main_arg9)) h := by
  have e : V3 m ρ c main_v28 = shapeCast S1x128 (V2 m ρ c main_arg9) Facts₀.shapeCasts_S128_S1x128 := by
    show StableHlo.after hostOps1 (W2 m ρ c) (Proc.devRef .tc main_v28) = _; after_results <;> rfl
  rw [e, V2_arg9]; exact shapeCast_a_1a_apply _ _ 0 h

/-- THE RESULT: the result buffer's last contents are the network of the ten inputs. -/
theorem result_eq (c : Dev nD) :
    W4 m ρ c (Proc.devRef .tc main_v29)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) := by
  refine (W4_arr m ρ c 6).trans ?_
  rw [final1]
  unfold G1 net
  rw [V3_v16, V3_v26, V3_arg6, V3_arg8, funext (V3_v27 m ρ c), funext (V3_v28 m ρ c)]

end Cert.Gin

end
-- ==== Proof.RefValue.lean ====
/-
  The idealized reference program's result is the network of its inputs.

  The reference computes each layer on the whole arrays: the features plus their neighbour sum, a matrix product with the
  first weights, the bias broadcast over the rows, the rectifier, a second product and bias, and (after the first layer) one
  more rectifier. Over the extended reals its matrix product at `(r, c)` is the sum over the contracted coordinate, so every
  entry is the perceptron's output unit `c` of row `r`; its neighbour sum is the same host scatter-add of gathered rows.
-/
import proofs.«137745_j27384711480020_1_alg».proof.Proof.Gen.ReferenceIdeal.Read
import proofs.«137745_j27384711480020_1_alg».proof.Proof.Network

noncomputable section

namespace Cert.Gin.Ref

open Cert.ReferenceIdeal Cert.ReferenceIdeal.Read
open Idealize.ShloMosaic Idealize.ShloMosaic.ValueIdx

/-! ## The stages' index maps at `(r, c)`: a product reads row `r` of its left operand and column `c` of its right one, a
    broadcast bias reads unit `c` -/

theorem l15 (r : Fin 50000) (c k : Fin 128) : lidx_main_v15 (ix2 r c) k = ix2 r k :=
  funext fun a => by match a with | ⟨0, _⟩ => rfl | ⟨1, _⟩ => rfl
theorem r15 (r : Fin 50000) (c k : Fin 128) : ridx_main_v15 (ix2 r c) k = ix2 k c :=
  funext fun a => by match a with | ⟨0, _⟩ => rfl | ⟨1, _⟩ => rfl
theorem b15 (r : Fin 50000) (c : Fin 128) : idx_main_v16 (idx_main_v17 (ix2 r c)) = ix1 c :=
  funext fun a => by match a with | ⟨0, _⟩ => rfl

theorem l20 (r : Fin 50000) (c k : Fin 128) : lidx_main_v20 (ix2 r c) k = ix2 r k :=
  funext fun a => by match a with | ⟨0, _⟩ => rfl | ⟨1, _⟩ => rfl
theorem r20 (r : Fin 50000) (c k : Fin 128) : ridx_main_v20 (ix2 r c) k = ix2 k c :=
  funext fun a => by match a with | ⟨0, _⟩ => rfl | ⟨1, _⟩ => rfl
theorem b20 (r : Fin 50000) (c : Fin 128) : idx_main_v21 (idx_main_v22 (ix2 r c)) = ix1 c :=
  funext fun a => by match a with | ⟨0, _⟩ => rfl

theorem l36 (r : Fin 50000) (c k : Fin 128) : lidx_main_v36 (ix2 r c) k = ix2 r k :=
  funext fun a => by match a with | ⟨0, _⟩ => rfl | ⟨1, _⟩ => rfl
theorem r36 (r : Fin 50000) (c k : Fin 128) : ridx_main_v36 (ix2 r c) k = ix2 k c :=
  funext fun a => by match a with | ⟨0, _⟩ => rfl | ⟨1, _⟩ => rfl
theorem b36 (r : Fin 50000) (c : Fin 128) : idx_main_v37 (idx_main_v38 (ix2 r c)) = ix1 c :=
  funext fun a => by match a with | ⟨0, _⟩ => rfl

theorem l41 (r : Fin 50000) (c k : Fin 128) : lidx_main_v41 (ix2 r c) k = ix2 r k :=
  funext fun a => by match a with | ⟨0, _⟩ => rfl | ⟨1, _⟩ => rfl
theorem r41 (r : Fin 50000) (c k : Fin 128) : ridx_main_v41 (ix2 r c) k = ix2 k c :=
  funext fun a => by match a with | ⟨0, _⟩ => rfl | ⟨1, _⟩ => rfl
theorem b41 (r : Fin 50000) (c : Fin 128) : idx_main_v42 (idx_main_v43 (ix2 r c)) = ix1 c :=
  funext fun a => by match a with | ⟨0, _⟩ => rfl

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))

/-- The reference's first neighbour sum is the network's. -/
theorem agg1_eq : val_main_v13 (F := Ideal) x0 x1 = agg x0 x1 := rfl

/-- Its first layer's output is the network's first layer. -/
theorem feat_eq : val_main_v24 (F := Ideal) x0 x1 x2 x3 x4 x5 = feat x0 x1 x2 x3 x4 x5 := by
  funext i
  obtain ⟨r, c, rfl⟩ : ∃ (r : Fin 50000) (c : Fin 128), i = ix2 r c := ⟨i 0, i 1, eq_ix2 i⟩
  rw [val_main_v24_apply, val_main_v23_apply, val_main_v20_apply, val_main_v22_apply, val_main_v21_apply,
    val_main_call1_v0_apply, val_main_call1_cst_apply]
  simp only [l20, r20, b20]
  unfold feat layerRelu affine
  refine congrArg (fun z => max (z + x5 (ix1 c)) zeroWord) (Finset.sum_congr rfl fun h _ => congrArg (fun z => z * x4 (ix2 h c)) ?_)
  rw [val_main_v19_apply, val_main_v18_apply, val_main_v15_apply, val_main_v17_apply, val_main_v16_apply,
    val_main_call0_v0_apply, val_main_call0_cst_apply]
  simp only [l15, r15, b15]
  unfold hidden
  refine congrArg (fun z => max (z + x3 (ix1 h)) zeroWord) (Finset.sum_congr rfl fun k _ => congrArg (fun z => z * x2 (ix2 k h)) ?_)
  rfl

/-- Its second neighbour sum is the network's, of the first layer's output. -/
theorem agg2_eq : val_main_v34 (F := Ideal) x0 x1 x2 x3 x4 x5 = agg (val_main_v24 (F := Ideal) x0 x1 x2 x3 x4 x5) x1 := rfl

/-- Its result is the network's last layer of the first layer's output. -/
theorem last_eq : val_main_v44 (F := Ideal) x0 x1 x2 x3 x4 x5 x6 x7 x8 x9
    = layerLin (R := 50000) (val_main_v24 (F := Ideal) x0 x1 x2 x3 x4 x5) (agg (val_main_v24 (F := Ideal) x0 x1 x2 x3 x4 x5) x1) x6 (biasRow x7) x8 (biasRow x9) := by
  funext i
  obtain ⟨r, c, rfl⟩ : ∃ (r : Fin 50000) (c : Fin 128), i = ix2 r c := ⟨i 0, i 1, eq_ix2 i⟩
  rw [val_main_v44_apply, val_main_v41_apply, val_main_v43_apply, val_main_v42_apply]
  simp only [l41, r41, b41]
  unfold layerLin affine
  refine congrArg (fun z => z + x9 (ix1 c)) (Finset.sum_congr rfl fun h _ => congrArg (fun z => z * x8 (ix2 h c)) ?_)
  rw [val_main_v40_apply, val_main_v39_apply, val_main_v36_apply, val_main_v38_apply, val_main_v37_apply,
    val_main_call2_v0_apply, val_main_call2_cst_apply]
  simp only [l36, r36, b36]
  unfold hidden
  refine congrArg (fun z => max (z + x7 (ix1 h)) zeroWord) (Finset.sum_congr rfl fun k _ => congrArg (fun z => z * x6 (ix2 k h)) ?_)
  rw [val_main_v35_apply, agg2_eq]
  rfl

/-- THE RESULT: the reference's result stage is the network of the ten inputs. -/
theorem net_eq : val_main_v44 (F := Ideal) x0 x1 x2 x3 x4 x5 x6 x7 x8 x9 = net x0 x1 x2 x3 x4 x5 x6 x7 x8 x9 := by
  rw [last_eq, feat_eq]
  rfl

end Cert.Gin.Ref

end
-- ==== Proof.lean ====
/-
  A two-layer graph network — each layer a neighbour sum over the edges followed by a row-wise two-layer perceptron —
  computed two ways over the extended reals: by a program that runs each layer's perceptron as a row-blocked kernel on
  the matrix unit between host gathers and scatter-adds, and by a reference that does everything on whole arrays.

  Both results are ONE function of the ten inputs (`Cert.Gin.net`): a row of a layer's output depends only on that row of the
  features and of their neighbour sum, so the ten row blocks a kernel call writes are the rows of the layer applied to the
  whole arrays; a matrix product into a zero accumulator and the host's product are the same sum over the contracted
  coordinate, term by term in the same order; a change of float format is the identity; and the neighbour sums are the same
  host operations of the same operands. No law of arithmetic beyond that is used, so the finiteness of the inputs is not
  needed for the equality. The three programs' runs (termination, no fault, arguments unchanged) are the generated frames and
  the generated run of the reference; the idealization rewrote no operation.
-/
import proofs.«137745_j27384711480020_1_alg».proof.Defs
import proofs.«137745_j27384711480020_1_alg».proof.Proof.Gen.Kernel
import proofs.«137745_j27384711480020_1_alg».proof.Proof.Gen.Kernel.Skeleton
import proofs.«137745_j27384711480020_1_alg».proof.Proof.Gen.Kernel.Launch
import proofs.«137745_j27384711480020_1_alg».proof.Proof.Gen.Kernel.Points
import proofs.«137745_j27384711480020_1_alg».proof.Proof.Gen.Kernel.Frame
import proofs.«137745_j27384711480020_1_alg».proof.Proof.Gen.KernelIdeal
import proofs.«137745_j27384711480020_1_alg».proof.Proof.Gen.KernelIdeal.Skeleton
import proofs.«137745_j27384711480020_1_alg».proof.Proof.Gen.KernelIdeal.Launch
import proofs.«137745_j27384711480020_1_alg».proof.Proof.Gen.KernelIdeal.Points
import proofs.«137745_j27384711480020_1_alg».proof.Proof.Gen.KernelIdeal.Frame
import proofs.«137745_j27384711480020_1_alg».proof.Proof.Gen.ReferenceIdeal
import proofs.«137745_j27384711480020_1_alg».proof.Proof.Gen.ReferenceIdeal.Run
import proofs.«137745_j27384711480020_1_alg».proof.Proof.Gen.ReferenceIdeal.Read
import proofs.«137745_j27384711480020_1_alg».proof.Proof.Gen.Pre_finite_inputs
import proofs.«137745_j27384711480020_1_alg».proof.Proof.KernelRun
import proofs.«137745_j27384711480020_1_alg».proof.Proof.KernelValue
import proofs.«137745_j27384711480020_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the ten arguments both programs end with the network of those arguments in their result. -/
theorem algebraic : Cert.algebraic_KernelIdeal_ReferenceIdeal := by
  intro m ρ m' ρ' _ hagree
  refine ⟨fun c => Cert.Gin.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.Gin.result_eq m ρ c), (h c).2⟩)
      (Cert.Gin.Run.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v44_eq, Cert.Gin.Ref.net_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
